-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S_ : Shape := ⟨0, ![]⟩

class Facts : Prop where
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel

variable [Facts]

def fn {F : FTy → Type} [FloatOps F] (main_arg0 : FVec F S8x64x256x256 .f32) : IVec S_ 1 :=
  let main_v0 : FVec F S8x64x256x256 .f32 := Host.absf main_arg0
  let main_cst : FVec F S_ .f32 := constant S_ .f32 0x7F800000#32
  let main_v1 : FVec F S8x64x256x256 .f32 := broadcastInDim S8x64x256x256 ![] bcast_S_S8x64x256x256 main_cst
  let main_v2 : IVec S8x64x256x256 1 := cmpf .olt main_v0 main_v1
  let main_c : IVec S_ 1 := constantI S_ 1 1#1
  let main_v3 : IVec S_ 1 := (fun x v => Host.reduce IntOp.andi x v reducesTo_S8x64x256x256_S_d0_1_2_3 h_S_) main_v2 main_c
  main_v3
-- ==== Kernel.lean ====
abbrev S8x64x256x256 : Shape := ⟨4, ![8, 64, 256, 256]⟩
abbrev S512x256x256 : Shape := ⟨3, ![512, 256, 256]⟩
abbrev S512x255x255 : Shape := ⟨3, ![512, 255, 255]⟩
abbrev S16x256x256 : Shape := ⟨3, ![16, 256, 256]⟩
abbrev S16x255x255 : Shape := ⟨3, ![16, 255, 255]⟩
abbrev S8x64x65025 : Shape := ⟨3, ![8, 64, 65025]⟩

abbrev nBuf : Space → Nat
  | .hbm => 4
  | .vmem => 4
  | .smem => 0
  | _ => 0

abbrev bufTy : (tb : Table) → Fin (tcTables nBuf tb) → BufTy
  | .hbm, ⟨0, _⟩ => ⟨S8x64x256x256, .f32⟩
  | .hbm, ⟨1, _⟩ => ⟨S512x256x256, .f32⟩
  | .hbm, ⟨2, _⟩ => ⟨S512x255x255, .f32⟩
  | .hbm, ⟨3, _⟩ => ⟨S8x64x65025, .f32⟩
  | .local _ .vmem, ⟨0, _⟩ => ⟨S16x256x256, .f32⟩
  | .local _ .vmem, ⟨1, _⟩ => ⟨S16x256x256, .f32⟩
  | .local _ .vmem, ⟨2, _⟩ => ⟨S16x255x255, .f32⟩
  | .local _ .vmem, ⟨3, _⟩ => ⟨S16x255x255, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x255x255 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8x64x256x256_S512x256x256 : S8x64x256x256.ShapeCasts S512x256x256
  inb_S16x256x256_S16x256x256_0_0_0 : ∀ a, (![0, 0, 0] : Fin 3 → Nat) a + S16x256x256.size a ≤ S16x256x256.size a
  h_S16x256x256 : 0 < S16x256x256.numel
  shapeCasts_S16x256x256_S16x256x256 : S16x256x256.ShapeCasts S16x256x256
  slices_S16x256x256_o0_0_0_S16x255x255 : S16x256x256.Slices ![0, 0, 0] S16x255x255
  slices_S16x256x256_o0_0_1_S16x255x255 : S16x256x256.Slices ![0, 0, 1] S16x255x255
  slices_S16x256x256_o0_1_0_S16x255x255 : S16x256x256.Slices ![0, 1, 0] S16x255x255
  slices_S16x256x256_o0_1_1_S16x255x255 : S16x256x256.Slices ![0, 1, 1] S16x255x255
  inb_S16x255x255_S16x255x255_0_0_0 : ∀ a, (![0, 0, 0] : Fin 3 → Nat) a + S16x255x255.size a ≤ S16x255x255.size a
  h_S16x255x255 : 0 < S16x255x255.numel
  shapeCasts_S512x255x255_S8x64x65025 : S512x255x255.ShapeCasts S8x64x65025
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x256.size a ≤ S512x256x256.size a
  hwx0_0 : ∀ i : grid0.Coords, EltTy.bits .f32 = 32 ∨ (Rect.block (s := S512x256x256) S16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x255x255.size a ≤ S512x255x255.size a
  hwx0_1 : ∀ i : grid0.Coords, EltTy.bits .f32 = 32 ∨ (Rect.block (s := S512x255x255) S16x255x255.size (cc0_transform_1 i) (hinb0_1 i)).WholeWords (EltTy.packing .f32)

variable [Facts₀]

abbrev win0_0 : Pipeline.Window sig grid0 :=
  Pipeline.Window.ofSpec (Memref.whole main_v0) S16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x255x255.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x64x256x256 : Shape := ⟨4, ![8, 64, 256, 256]⟩
abbrev S8x64x255x255 : Shape := ⟨4, ![8, 64, 255, 255]⟩
abbrev S8x64x255x255x1 : Shape := ⟨5, ![8, 64, 255, 255, 1]⟩
abbrev S8x64x255x255x4 : Shape := ⟨5, ![8, 64, 255, 255, 4]⟩
abbrev S8x64x65025x4 : Shape := ⟨4, ![8, 64, 65025, 4]⟩
abbrev S_ : Shape := ⟨0, ![]⟩
abbrev S8x64x65025 : Shape := ⟨3, ![8, 64, 65025]⟩
abbrev S8x64x65025x1 : Shape := ⟨4, ![8, 64, 65025, 1]⟩

abbrev nBuf : Space → Nat
  | .hbm => 27
  | .vmem => 0
  | .smem => 0
  | _ => 0

abbrev bufTy : (tb : Table) → Fin (tcTables nBuf tb) → BufTy
  | .hbm, ⟨0, _⟩ => ⟨S8x64x256x256, .f32⟩
  | .hbm, ⟨1, _⟩ => ⟨S8x64x255x255, .f32⟩
  | .hbm, ⟨2, _⟩ => ⟨S8x64x255x255, .f32⟩
  | .hbm, ⟨3, _⟩ => ⟨S8x64x255x255, .f32⟩
  | .hbm, ⟨4, _⟩ => ⟨S8x64x255x255, .f32⟩
  | .hbm, ⟨5, _⟩ => ⟨S8x64x255x255x1, .f32⟩
  | .hbm, ⟨6, _⟩ => ⟨S8x64x255x255x1, .f32⟩
  | .hbm, ⟨7, _⟩ => ⟨S8x64x255x255x1, .f32⟩
  | .hbm, ⟨8, _⟩ => ⟨S8x64x255x255x1, .f32⟩
  | .hbm, ⟨9, _⟩ => ⟨S8x64x255x255x4, .f32⟩
  | .hbm, ⟨10, _⟩ => ⟨S8x64x65025x4, .f32⟩
  | .hbm, ⟨11, _⟩ => ⟨S_, .f32⟩
  | .hbm, ⟨12, _⟩ => ⟨S8x64x65025, .f32⟩
  | .hbm, ⟨13, _⟩ => ⟨S8x64x65025x1, .f32⟩
  | .hbm, ⟨14, _⟩ => ⟨S_, .f32⟩
  | .hbm, ⟨15, _⟩ => ⟨S8x64x65025x1, .f32⟩
  | .hbm, ⟨16, _⟩ => ⟨S8x64x65025x1, .f32⟩
  | .hbm, ⟨17, _⟩ => ⟨S8x64x65025x4, .f32⟩
  | .hbm, ⟨18, _⟩ => ⟨S8x64x65025x4, .f32⟩
  | .hbm, ⟨19, _⟩ => ⟨S_, .f32⟩
  | .hbm, ⟨20, _⟩ => ⟨S8x64x65025x4, .f32⟩
  | .hbm, ⟨21, _⟩ => ⟨S8x64x65025x4, .f32⟩
  | .hbm, ⟨22, _⟩ => ⟨S8x64x65025x4, .f32⟩
  | .hbm, ⟨23, _⟩ => ⟨S8x64x65025x4, .f32⟩
  | .hbm, ⟨24, _⟩ => ⟨S_, .f32⟩
  | .hbm, ⟨25, _⟩ => ⟨S8x64x65025, .f32⟩
  | .hbm, ⟨26, _⟩ => ⟨S8x64x65025, .f32⟩
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_2 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]

class Facts₀ : Prop where
  slices_S8x64x256x256_S8x64x255x255_0_0_0_0 : S8x64x256x256.Slices ![0, 0, 0, 0] S8x64x255x255
  slices_S8x64x256x256_S8x64x255x255_0_0_0_1 : S8x64x256x256.Slices ![0, 0, 0, 1] S8x64x255x255
  slices_S8x64x256x256_S8x64x255x255_0_0_1_0 : S8x64x256x256.Slices ![0, 0, 1, 0] S8x64x255x255
  slices_S8x64x256x256_S8x64x255x255_0_0_1_1 : S8x64x256x256.Slices ![0, 0, 1, 1] S8x64x255x255
  bcast_S8x64x255x255_S8x64x255x255x1_0_1_2_3 : S8x64x255x255.BroadcastsInDim S8x64x255x255x1 (![0, 1, 2, 3] : Fin 4 → Fin S8x64x255x255x1.rank)
  concatenates_S8x64x255x255x1_S8x64x255x255x1_S8x64x255x255x1_S8x64x255x255x1_S8x64x255x255x4_d4 : Shape.Concatenates [S8x64x255x255x1, S8x64x255x255x1, S8x64x255x255x1, S8x64x255x255x1] S8x64x255x255x4 4
  shapeCasts_S8x64x255x255x4_S8x64x65025x4 : S8x64x255x255x4.ShapeCasts S8x64x65025x4
  reducesTo_S8x64x65025x4_S8x64x65025_d3 : S8x64x65025x4.ReducesTo [3] S8x64x65025
  h_S_ : 0 < S_.numel
  bcast_S8x64x65025_S8x64x65025x1_0_1_2 : S8x64x65025.BroadcastsInDim S8x64x65025x1 (![0, 1, 2] : Fin 3 → Fin S8x64x65025x1.rank)
  bcast_S_S8x64x65025x1 : S_.BroadcastsInDim S8x64x65025x1 (![] : Fin 0 → Fin S8x64x65025x1.rank)
  bcast_S8x64x65025x1_S8x64x65025x4_0_1_2_3 : S8x64x65025x1.BroadcastsInDim S8x64x65025x4 (![0, 1, 2, 3] : Fin 4 → Fin S8x64x65025x4.rank)
  bcast_S_S8x64x65025x4 : S_.BroadcastsInDim S8x64x65025x4 (![] : Fin 0 → Fin S8x64x65025x4.rank)

variable [Facts₀]

class Facts : Prop extends Facts₀ where

variable [Facts]
-- ==== Proof.LibReciprocal.lean ====
/-
  The reciprocal against the quotient on the extended reals.

  A kernel often multiplies by a reciprocal `1 / s` where its reference divides by `s`. With the division of the
  extended reals — `x / y = x · y⁻¹` off `y = 0`, and `x / 0` the infinity of `x`'s sign (`⊥` for `x = 0`) — the two agree
  at every `s ≠ 0`, infinite `s` included, because `1 / s = 1 · s⁻¹ = s⁻¹`; at `s = 0` the reciprocal is `⊤` and the two
  can differ (`0 · ⊤ = 0` against `0 / 0 = ⊥`), so that corner is the user's to treat. For treating it: a sum of
  extended reals that is a real number has real summands, so "the denominator is zero" makes every summand real.

  To use: import this file, `open Cert.Lib.Reciprocal`; rewrite with `mul_div_one_of_ne hs` where `hs : s ≠ 0`; at
  `s = 0` rewrite with `div_one_zero` and `div_zero`, and get real witnesses from `real_of_add_eq_coe`.
-/
import Idealize.ShloMosaic.PureOps.Ideal

noncomputable section

namespace Cert.Lib.Reciprocal

open Idealize.ShloMosaic

/-- A sum of two extended reals that is a real number has real summands: an infinite summand makes the sum infinite. -/
theorem real_of_add_eq_coe {x y : EReal} {r : ℝ} (h : x + y = (r : EReal)) :
    ∃ x' y' : ℝ, x = (x' : EReal) ∧ y = (y' : EReal) := by
  induction x using EReal.rec with
  | bot => simp at h
  | top =>
    induction y using EReal.rec with
    | bot => simp at h
    | top => simp at h
    | coe y' => simp at h
  | coe x' =>
    induction y using EReal.rec with
    | bot => simp at h
    | top => simp at h
    | coe y' => exact ⟨x', y', rfl, rfl⟩

/-- Off zero, the product with the reciprocal is the quotient: `x · (1 · s⁻¹) = x · s⁻¹`, for every extended real `x`
    and every `s ≠ 0`, the infinities included. -/
theorem mul_div_one_of_ne {s : EReal} (hs : s ≠ 0) (x : EReal) : x * Ideal.div 1 s = Ideal.div x s := by
  simp only [Ideal.div, if_neg hs, one_mul]

/-- The reciprocal of zero is `+∞`. -/
theorem div_one_zero : Ideal.div 1 0 = ⊤ := by
  simp [Ideal.div]

/-- A quotient by zero is the infinity of the numerator's sign, `-∞` for a zero numerator. -/
theorem div_zero (x : EReal) : Ideal.div x 0 = if 0 < x then ⊤ else ⊥ := by
  simp [Ideal.div]

end Cert.Lib.Reciprocal

end
-- ==== Proof.EntropyLaw.lean ====
/-
  The entropy of four window taps, in the two arrangements the two programs use, and the law that joins them.

  With taps `a b c d`, a shift `e` and `s = a + b + c + d + e`, the entropy is `-(Σ p · log (p + e))` over the four
  probabilities `p`. One arrangement forms each probability as the PRODUCT of a tap with the reciprocal `1 / s`, the
  other as the QUOTIENT of the tap by `s`. On the extended reals the quotient by a nonzero `s` is the product with
  `s⁻¹`, and `1 / s = 1 · s⁻¹ = s⁻¹`, so off `s = 0` the two arrangements agree term by term. At `s = 0` they do not
  agree term by term — a zero tap gives the probability `0 · ⊤ = 0` in the first and `0 / 0 = ⊥` in the second — but the
  results still agree: `s = 0` forces every tap to be a real number and the taps to sum to `-e ≠ 0`, so some tap is
  nonzero; a nonzero tap's probability is `⊤` or `⊥` in both arrangements and its summand `⊤ · log ⊤ = ⊤` or
  `⊥ · log ⊥ = ⊥ · ⊥ = ⊤`; the other summands are `0` or `⊤`; so both sums are `⊤` and both entropies `⊥`.
-/
import Idealize.ShloMosaic.PureOps.Ideal
import Idealize.ShloMosaic.PureOps.Ideal.Laws
import proofs.«163738_j70600672411748_1_alg».proof.Proof.LibReciprocal

noncomputable section

namespace Cert.Entropy

open Idealize.ShloMosaic Cert.Lib.Reciprocal

/-- One summand of the entropy: `p · log (p + e)`. -/
def term (e p : EReal) : EReal := p * Ideal.log (p + e)

/-- The entropy with each probability the product of its tap with the reciprocal of the shifted sum. -/
def byReciprocal (e a b c d : EReal) : EReal :=
  0 - (term e (a * Ideal.div 1 (a + b + c + d + e)) + term e (b * Ideal.div 1 (a + b + c + d + e))
        + term e (c * Ideal.div 1 (a + b + c + d + e)) + term e (d * Ideal.div 1 (a + b + c + d + e)))

/-- The entropy with each probability the quotient of its tap by the shifted sum (the sums started from `0`). -/
def byQuotient (e a b c d : EReal) : EReal :=
  -(0 + (term e (Ideal.div a (0 + (a + b + c + d) + e)) + term e (Ideal.div b (0 + (a + b + c + d) + e))
        + term e (Ideal.div c (0 + (a + b + c + d) + e)) + term e (Ideal.div d (0 + (a + b + c + d) + e))))

/-- The summand at `+∞` is `⊤ · log ⊤ = ⊤`. -/
theorem term_top (e : ℝ) : term (e : EReal) ⊤ = ⊤ := by
  simp [term]

/-- The summand at `-∞` is `⊥ · log ⊥ = ⊥ · ⊥ = ⊤`. -/
theorem term_bot (e : ℝ) : term (e : EReal) ⊥ = ⊤ := by
  simp [term]

/-- The summand at `0` is `0`, whatever the logarithm is. -/
theorem term_zero (e : EReal) : term e 0 = 0 := by
  simp [term]

/-- A quotient by zero is an infinity, so its summand is `⊤`. -/
theorem term_div_zero (e : ℝ) (x : EReal) : term (e : EReal) (Ideal.div x 0) = ⊤ := by
  unfold Ideal.div
  rw [if_pos rfl]
  split
  · exact term_top e
  · exact term_bot e

/-- A real tap times `+∞` is `0`, `+∞` or `-∞` by its sign, so its summand is `0` for a zero tap and `⊤` otherwise. -/
theorem term_coe_mul_top (e : ℝ) (x : ℝ) : term (e : EReal) ((x : EReal) * ⊤) = if x = 0 then 0 else ⊤ := by
  rcases lt_trichotomy x 0 with hx | hx | hx
  · rw [EReal.coe_mul_top_of_neg hx, term_bot, if_neg hx.ne]
  · subst hx
    rw [EReal.coe_zero, zero_mul, term_zero, if_pos rfl]
  · rw [EReal.coe_mul_top_of_pos hx, term_top, if_neg hx.ne']

/-- **The two arrangements of the entropy agree**, for a real nonzero shift, at every extended-real tap. -/
theorem byReciprocal_eq_byQuotient (e : ℝ) (he : e ≠ 0) (a b c d : EReal) :
    byReciprocal (e : EReal) a b c d = byQuotient (e : EReal) a b c d := by
  unfold byReciprocal byQuotient
  simp only [zero_add, sub_eq_add_neg]
  by_cases hs : a + b + c + d + (e : EReal) = 0
  · -- the shifted sum vanishes: every tap is real, and not all are zero
    rw [hs]
    simp only [div_one_zero, term_div_zero]
    obtain ⟨x1, -, h1, -⟩ := real_of_add_eq_coe (r := 0) (by rw [EReal.coe_zero]; exact hs)
    obtain ⟨x2, d', h2, rfl⟩ := real_of_add_eq_coe h1
    obtain ⟨x3, c', h3, rfl⟩ := real_of_add_eq_coe h2
    obtain ⟨a', b', rfl, rfl⟩ := real_of_add_eq_coe h3
    have hsum : a' + b' + c' + d' + e = 0 := by exact_mod_cast hs
    simp only [term_coe_mul_top]
    by_cases ha : a' = 0 <;> by_cases hb : b' = 0 <;> by_cases hc : c' = 0 <;> by_cases hd : d' = 0 <;>
      first
        | (exfalso; apply he; subst ha hb hc hd; simpa using hsum)
        | simp [ha, hb, hc, hd]
  · simp only [mul_div_one_of_ne hs]

end Cert.Entropy

end
-- ==== Proof.Words.lean ====
/-
  The three float words the two programs spell, as extended reals: `0x00000000` is `0` (the library's), `0x3F800000` is
  `1`, and `0x358637BD` — the shift `ε`, the binary32 nearest `10⁻⁶` — is the real number `8796093 · 2⁻⁴³`, of which only
  "a nonzero real" is used.
-/
import Idealize.ShloMosaic.PureOps.Ideal
import Idealize.ShloMosaic.PureOps.Ideal.Laws

noncomputable section

namespace Cert.Entropy

open Idealize.ShloMosaic

/-- The word of `1.0` denotes `1`. -/
theorem word_one : Ideal.ofBits .f32 0x3F800000#32 = 1 := by
  simp [Ideal.ofBits, Ideal.ieee, -EReal.coe_mul]
  norm_num

/-- The shift's value as a real number. -/
def eps : ℝ := 8796093 * (2 : ℝ) ^ (-43 : Int)

/-- The word of the shift denotes that real number. -/
theorem word_eps : Ideal.ofBits .f32 0x358637BD#32 = (eps : EReal) := by
  simp [Ideal.ofBits, Ideal.ieee, eps, -EReal.coe_mul]

/-- The shift is not zero. -/
theorem eps_ne_zero : eps ≠ 0 := by
  unfold eps
  positivity

end Cert.Entropy

end
-- ==== Proof.EntropyAt.lean ====
/-
  The result both programs compute, as ONE function of the input array, index by index.

  The input is 8 × 64 images of 256 × 256; the result has, per image, one entry for each of the 255 × 255 positions of a
  2 × 2 window, the positions flattened row-major: entry `q` is the window whose top-left corner is row `q / 255`,
  column `q % 255`. The entry is the entropy of the window's four taps — the corner shifted by `(0,0)`, `(0,1)`,
  `(1,0)`, `(1,1)` — with the shift `ε`.
-/
import Idealize.ShloMosaic.Lib.ValueIdx
import proofs.«163738_j70600672411748_1_alg».proof.Proof.EntropyLaw
import proofs.«163738_j70600672411748_1_alg».proof.Proof.Words

noncomputable section

namespace Cert.Entropy

open Idealize.ShloMosaic Idealize.ShloMosaic.ValueIdx

/-- The tap of image `(i 0, i 1)` for window position `i 2`, the window's corner shifted by `(di, dj)`. -/
def tap (x : (⟨4, ![8, 64, 256, 256]⟩ : Shape).Idx → EReal) (i : (⟨3, ![8, 64, 65025]⟩ : Shape).Idx) (di dj : Fin 2) : EReal :=
  x (ix4 (i 0) (i 1)
    ⟨(i 2).val / 255 + di.val, by have h2 : (i 2).val < 65025 := (i 2).isLt; have := di.isLt; omega⟩
    ⟨(i 2).val % 255 + dj.val, by have := dj.isLt; omega⟩)

/-- The window entropy at every image and window position. -/
def entropyAt (x : (⟨4, ![8, 64, 256, 256]⟩ : Shape).Idx → EReal) : (⟨3, ![8, 64, 65025]⟩ : Shape).Idx → EReal :=
  fun i => byQuotient (eps : EReal) (tap x i 0 0) (tap x i 0 1) (tap x i 1 0) (tap x i 1 1)

end Cert.Entropy

end
-- ==== Proof.KernelBody.lean ====
/-
  What the kernel's body stores, entry by entry.

  The body loads one block of 16 images of 256 × 256, takes the four views of it shifted by `(0,0)`, `(0,1)`, `(1,0)`,
  `(1,1)` (each 16 × 255 × 255), and stores, at every position of the 16 × 255 × 255 output block, the entropy of the four
  views' entries there, each probability formed as the product of a tap with the reciprocal of the shifted sum
  (`Cert.Entropy.byReciprocal`). A shifted view read at a position is the loaded block read at the shifted position.
-/
import proofs.«163738_j70600672411748_1_alg».proof.Proof.Gen.KernelIdeal.Skeleton
import proofs.«163738_j70600672411748_1_alg».proof.Proof.EntropyAt
import Idealize.ShloMosaic.Lib.ValueIdx
import Idealize.ShloMosaic.Lib.Pipeline.Value

noncomputable section

namespace Cert.KernelIdeal.BodyValue

open Cert.KernelIdeal Cert.KernelIdeal.Gen Cert.Entropy
open Idealize.ShloMosaic Idealize.ShloMosaic.ValueIdx

/-- A position of the output block, shifted by `(di, dj)`, as a position of the input block. -/
def shifted (j : S16x255x255.Idx) (di dj : Fin 2) : S16x256x256.Idx :=
  ix3 (⟨(j 0).val, (j 0).isLt⟩ : Fin 16)
    (⟨(j 1).val + di.val, by have h : (j 1).val < 255 := (j 1).isLt; have := di.isLt; omega⟩ : Fin 256)
    (⟨(j 2).val + dj.val, by have h : (j 2).val < 255 := (j 2).isLt; have := dj.isLt; omega⟩ : Fin 256)

/-- The view shifted by `(0, 0)`, read at a position of the output block, is the loaded block at the shifted position. -/
theorem slice_00 (v : Vec Ideal S16x256x256 .f32) (h : S16x256x256.Slices ![0, 0, 0] S16x255x255) (j : S16x255x255.Idx) :
    extractStridedSlice S16x255x255 ![0, 0, 0] v h j = v (shifted j 0 0) := by
  refine extractStridedSlice_apply _ v h j _ (fun a => ?_)
  match a with
  | ⟨0, _⟩ => show (j 0).val = 0 + (j 0).val; omega
  | ⟨1, _⟩ => show (j 1).val + 0 = 0 + (j 1).val; omega
  | ⟨2, _⟩ => show (j 2).val + 0 = 0 + (j 2).val; omega

/-- The view shifted by `(0, 1)`, read at a position of the output block, is the loaded block at the shifted position. -/
theorem slice_01 (v : Vec Ideal S16x256x256 .f32) (h : S16x256x256.Slices ![0, 0, 1] S16x255x255) (j : S16x255x255.Idx) :
    extractStridedSlice S16x255x255 ![0, 0, 1] v h j = v (shifted j 0 1) := by
  refine extractStridedSlice_apply _ v h j _ (fun a => ?_)
  match a with
  | ⟨0, _⟩ => show (j 0).val = 0 + (j 0).val; omega
  | ⟨1, _⟩ => show (j 1).val + 0 = 0 + (j 1).val; omega
  | ⟨2, _⟩ => show (j 2).val + 1 = 1 + (j 2).val; omega

/-- The view shifted by `(1, 0)`, read at a position of the output block, is the loaded block at the shifted position. -/
theorem slice_10 (v : Vec Ideal S16x256x256 .f32) (h : S16x256x256.Slices ![0, 1, 0] S16x255x255) (j : S16x255x255.Idx) :
    extractStridedSlice S16x255x255 ![0, 1, 0] v h j = v (shifted j 1 0) := by
  refine extractStridedSlice_apply _ v h j _ (fun a => ?_)
  match a with
  | ⟨0, _⟩ => show (j 0).val = 0 + (j 0).val; omega
  | ⟨1, _⟩ => show (j 1).val + 1 = 1 + (j 1).val; omega
  | ⟨2, _⟩ => show (j 2).val + 0 = 0 + (j 2).val; omega

/-- The view shifted by `(1, 1)`, read at a position of the output block, is the loaded block at the shifted position. -/
theorem slice_11 (v : Vec Ideal S16x256x256 .f32) (h : S16x256x256.Slices ![0, 1, 1] S16x255x255) (j : S16x255x255.Idx) :
    extractStridedSlice S16x255x255 ![0, 1, 1] v h j = v (shifted j 1 1) := by
  refine extractStridedSlice_apply _ v h j _ (fun a => ?_)
  match a with
  | ⟨0, _⟩ => show (j 0).val = 0 + (j 0).val; omega
  | ⟨1, _⟩ => show (j 1).val + 1 = 1 + (j 1).val; omega
  | ⟨2, _⟩ => show (j 2).val + 1 = 1 + (j 2).val; omega

/-- The body's scalar words as extended reals: the shift, one and zero. -/
theorem scalar_eps : Scalar.ofBits (F := Ideal) .f32 0x358637BD#32 = (eps : EReal) := word_eps
theorem scalar_one : Scalar.ofBits (F := Ideal) .f32 0x3F800000#32 = (1 : EReal) := word_one
theorem scalar_zero : Scalar.ofBits (F := Ideal) .f32 0x00000000#32 = (0 : EReal) := Ideal.ofBits_zero_f32

/-- **The stored value at a position** is the entropy, in the reciprocal arrangement, of the loaded block's four taps
    at the position. -/
theorem body_apply (v : Vec Ideal S16x256x256 .f32) (j : S16x255x255.Idx) :
    k0_pay1 (F := Ideal) v j
      = byReciprocal (eps : EReal) (v (shifted j 0 0)) (v (shifted j 0 1)) (v (shifted j 1 0)) (v (shifted j 1 1)) := by
  unfold k0_pay1
  simp only [shapeCast_self, scalar_eps, scalar_one, scalar_zero]
  rw [← slice_00 v slices_S16x256x256_o0_0_0_S16x255x255 j, ← slice_01 v slices_S16x256x256_o0_0_1_S16x255x255 j,
    ← slice_10 v slices_S16x256x256_o0_1_0_S16x255x255 j, ← slice_11 v slices_S16x256x256_o0_1_1_S16x255x255 j]
  rfl

end Cert.KernelIdeal.BodyValue

end
-- ==== Proof.KernelArray.lean ====
/-
  The kernel's result array, entry by entry.

  The program flattens the 8 × 64 images to 512, runs the body on 32 blocks of 16 images — block `t` reads images
  `16 t … 16 t + 15` whole and writes the 255 × 255 window entropies of the same images —, and reshapes the
  `[512, 255, 255]` result to `[8, 64, 65025]`. So the array the region leaves is ONE function of the flattened input:
  at `(n, r, s)` the entropy of the taps `(n, r + di, s + dj)`; every entry lies in exactly the block of its image, so
  the blocks cover the array. Both reshapes keep the row-major position: image `n = 64 b + c` is image `(b, c)`, and
  entry `q` of the flattened positions is `(q / 255, q % 255)`. Read through them, the result at `(b, c, q)` is the
  entropy, in the reciprocal arrangement, of the input's taps at that window — which the law of the two arrangements
  turns into the specification's.
-/
import proofs.«163738_j70600672411748_1_alg».proof.Proof.Gen.KernelIdeal.Frame
import proofs.«163738_j70600672411748_1_alg».proof.Proof.KernelBody
import proofs.«163738_j70600672411748_1_alg».proof.Proof.EntropyAt
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.BodyValue Cert.Entropy
open Idealize.ShloMosaic.ValueIdx

variable (m : (ℓ : Loc nD τ sig) → Buf (Elt Ideal) ℓ) (ρ : Dev nD → PrngReg)

theorem hz : (![0, 0, 0] : Fin 3 → Nat) = fun _ => 0 := funext fun a => by fin_cases a <;> rfl

/-! ## The region's output as one function of the flattened input -/

/-- The tap of flattened image `i 0` at window corner `(i 1, i 2)` shifted by `(di, dj)`. -/
def tap3 (A : S512x256x256.Idx → EReal) (i : S512x255x255.Idx) (di dj : Fin 2) : EReal :=
  A (ix3 (⟨(i 0).val, (i 0).isLt⟩ : Fin 512)
    (⟨(i 1).val + di.val, by have h : (i 1).val < 255 := (i 1).isLt; have := di.isLt; omega⟩ : Fin 256)
    (⟨(i 2).val + dj.val, by have h : (i 2).val < 255 := (i 2).isLt; have := dj.isLt; omega⟩ : Fin 256))

/-- The window entropies of every flattened image, in the reciprocal arrangement. -/
def blockEntropy (A : S512x256x256.Idx → EReal) : S512x255x255.Idx → EReal :=
  fun i => byReciprocal (eps : EReal) (tap3 A i 0 0) (tap3 A i 0 1) (tap3 A i 1 0) (tap3 A i 1 1)

/-- The printed index maps, decided over the grid: both windows move along the image axis together and sit at block 0
    of the two position axes. -/
theorem idx_facts : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0 ∧ win0_1.index t (0 : Fin 3) ≤ 31 :=
  (by decide +kernel : ∀ t : Fin grid0.N, _)

/-- Every block of 16 images is some point's. -/
theorem idx_onto : ∀ q : Fin 32, ∃ t : Fin cfg0.N, win0_1.index t = ![q.val, 0, 0] :=
  (by decide +kernel : ∀ q : Fin 32, ∃ t : Fin grid0.N, win0_1.index t = ![q.val, 0, 0])

/-- A tap of the input block at a point is the tap of the flattened input at the output block's position. -/
theorem tap_eq (c : Dev nD) (t : Fin cfg0.N) (j : S16x255x255.Idx) (di dj : Fin 2) :
    (iblk m c 0 t : Vec Ideal S16x256x256 .f32) (shifted j di dj)
      = tap3 (V m c main_v0) (((cfg0.win 1).blk t).view.emb j) di dj := by
  obtain ⟨e0, e1, e2, e3, e4, e5⟩ := idx_facts t
  unfold iblk tap3
  rw [View.read_apply]
  show V m c main_v0 _ = V m c main_v0 _
  congr 1
  funext a
  apply Fin.ext
  match a with
  | ⟨0, _⟩ =>
    show win0_0.index t (0 : Fin 3) * 16 + 1 * (j 0).val = win0_1.index t (0 : Fin 3) * 16 + 1 * (j 0).val
    omega
  | ⟨1, _⟩ =>
    show win0_0.index t (1 : Fin 3) * 256 + 1 * ((j 1).val + di.val) = win0_1.index t (1 : Fin 3) * 255 + 1 * (j 1).val + di.val
    omega
  | ⟨2, _⟩ =>
    show win0_0.index t (2 : Fin 3) * 256 + 1 * ((j 2).val + dj.val) = win0_1.index t (2 : Fin 3) * 255 + 1 * (j 2).val + dj.val
    omega

/-- WHAT POINT `t` WRITES BACK is block `t` of the window entropies of the flattened input as the region finds it. -/
theorem flushed_eq (c : Dev nD) (t : Fin cfg0.N) :
    (dats m 0 c).flushed 1 t = ((cfg0.win 1).blk t).view.read (Elt Ideal) (blockEntropy (V m c main_v0)) := by
  show (cfg0.win 1).cut (grid0.coords t) ((dats m 0 c).after 1 t) = _
  rw [after0_1]
  unfold out0_1
  rw [View.canon_unit_zero hz]
  simp only [View.ld_unit_zero (S := S16x256x256) hz]
  funext j
  show k0_pay1 (F := Ideal) (iblk m c 0 t) j = blockEntropy (V m c main_v0) (((cfg0.win 1).blk t).view.emb j)
  refine (body_apply (iblk m c 0 t) j).trans ?_
  rw [tap_eq m c t j 0 0, tap_eq m c t j 0 1, tap_eq m c t j 1 0, tap_eq m c t j 1 1]
  rfl

/-- An index of the array is in point `t`'s block iff each coordinate is in the block's range on its axis. -/
theorem mem_blk (t : Fin cfg0.N) (i : S512x255x255.Idx) :
    i ∈ ((cfg0.win 1).blk t).view.set ↔ ∀ a : Fin 3, win0_1.index t a * S16x255x255.size a ≤ (i a).val ∧ (i a).val < win0_1.index t a * S16x255x255.size a + S16x255x255.size a := by
  show i ∈ ((View.whole main_v1).slice (win0_1.rect t)).set ↔ _
  rw [View.set_slice_whole, Rect.mem_set_unit]
  exact Iff.rfl

/-- Every entry is in the block of its image's group of 16. -/
theorem cover (i : S512x255x255.Idx) : ∃ t : Fin cfg0.N, (cfg0.win 1).flush t = true ∧ i ∈ ((cfg0.win 1).blk t).view.set := by
  have hi0 : (i 0).val < 512 := (i 0).isLt
  have hi1 : (i 1).val < 255 := (i 1).isLt
  have hi2 : (i 2).val < 255 := (i 2).isLt
  obtain ⟨t, ht⟩ := idx_onto ⟨(i 0).val / 16, by omega⟩
  have q0 : win0_1.index t (0 : Fin 3) = (i 0).val / 16 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 16 ≤ (i 0).val ∧ (i 0).val < win0_1.index t (0 : Fin 3) * 16 + 16; omega
  | ⟨1, _⟩ => show win0_1.index t (1 : Fin 3) * 255 ≤ (i 1).val ∧ (i 1).val < win0_1.index t (1 : Fin 3) * 255 + 255; omega
  | ⟨2, _⟩ => show win0_1.index t (2 : Fin 3) * 255 ≤ (i 2).val ∧ (i 2).val < win0_1.index t (2 : Fin 3) * 255 + 255; omega

/-- THE ARRAY the region leaves: the window entropies of the flattened input. -/
theorem final (c : Dev nD) : (dats m 0 c).arrAt 1 cfg0.N = blockEntropy (V m c main_v0) :=
  (dats m 0 c).arrAt_eq_of_cover 1 (blockEntropy (V m c main_v0)) (fun t _ => flushed_eq m c t) cover

/-! ## The two reshapes around the region -/

/-- The region finds the flattened input: the reshape of the argument. -/
theorem flat_input (c : Dev nD) : (V m c main_v0 : S512x256x256.Idx → EReal)
    = shapeCast S512x256x256 (m ((c.tc : Thread nD τ).loc main_arg0)) shapeCasts_S8x64x256x256_S512x256x256 := by
  show StableHlo.after hostOps0 (fun b => m (c, b)) (Proc.devRef .tc main_v0) = _
  after_results
  rfl

/-- The program's result is the reshape of the array the region leaves. -/
theorem result_reshape (c : Dev nD) :
    (Pipeline.afterTail₀ cfgs (dats m) 0 (V0 m) [hostOps1] c main_v2 : S8x64x65025.Idx → EReal)
      = shapeCast S8x64x65025 (blockEntropy (V m c main_v0)) shapeCasts_S512x255x255_S8x64x65025 := by
  unfold Pipeline.afterTail₀
  show StableHlo.after hostOps1 _ (Proc.devRef .tc main_v2) = _
  after_results
  have h := (Pipeline.withArrays_arr spec0 launch0.win.arr_inj c (V0 m c) (fun w => (dats m 0 c).arrAt w cfg0.N) 1).trans (final m c)
  exact congrArg (fun y => shapeCast S8x64x65025 y shapeCasts_S512x255x255_S8x64x65025) h

/-! ## The result, entry by entry -/

/-- A tap of the flattened input at the flattened position is the argument's tap at the window. -/
theorem tap3_flat (x : S8x64x256x256.Idx → EReal) (i : S8x64x65025.Idx) (k : S512x255x255.Idx)
    (hk0 : (k 0).val = (i 0).val * 64 + (i 1).val) (hk1 : (k 1).val = (i 2).val / 255) (hk2 : (k 2).val = (i 2).val % 255)
    (di dj : Fin 2) :
    tap3 (shapeCast S512x256x256 x shapeCasts_S8x64x256x256_S512x256x256) k di dj = tap x i di dj := by
  have h0 : (i 0).val < 8 := (i 0).isLt
  have h1 : (i 1).val < 64 := (i 1).isLt
  have h2 : (i 2).val < 65025 := (i 2).isLt
  unfold tap3 tap
  refine shapeCast_apply x shapeCasts_S8x64x256x256_S512x256x256 _ _ ?_
  rw [Shape.rowMajor_val_four, Shape.rowMajor_val_three]
  show (((i 0).val * 64 + (i 1).val) * 256 + ((i 2).val / 255 + di.val)) * 256 + ((i 2).val % 255 + dj.val)
    = ((k 0).val * 256 + ((k 1).val + di.val)) * 256 + ((k 2).val + dj.val)
  rw [hk0, hk1, hk2]

/-- **The program's result is the window entropy of its argument**, entry by entry. -/
theorem result_eq (c : Dev nD) :
    (Pipeline.afterTail₀ cfgs (dats m) 0 (V0 m) [hostOps1] c main_v2 : S8x64x65025.Idx → EReal)
      = entropyAt (m ((c.tc : Thread nD τ).loc main_arg0)) := by
  rw [result_reshape, flat_input]
  funext i
  have h0 : (i 0).val < 8 := (i 0).isLt
  have h1 : (i 1).val < 64 := (i 1).isLt
  have h2 : (i 2).val < 65025 := (i 2).isLt
  refine (shapeCast_apply _ shapeCasts_S512x255x255_S8x64x65025 i
    (ix3 (⟨(i 0).val * 64 + (i 1).val, by omega⟩ : Fin 512) (⟨(i 2).val / 255, by omega⟩ : Fin 255) (⟨(i 2).val % 255, by omega⟩ : Fin 255)) ?_).trans ?_
  · rw [Shape.rowMajor_val_three, Shape.rowMajor_val_three]
    show (((i 0).val * 64 + (i 1).val) * 255 + (i 2).val / 255) * 255 + (i 2).val % 255 = ((i 0).val * 64 + (i 1).val) * 65025 + (i 2).val
    omega
  · unfold blockEntropy entropyAt
    rw [tap3_flat _ i _ rfl rfl rfl, tap3_flat _ i _ rfl rfl rfl, tap3_flat _ i _ rfl rfl rfl, tap3_flat _ i _ rfl rfl rfl]
    exact byReciprocal_eq_byQuotient eps eps_ne_zero _ _ _ _

/-! ## The run, read -/

/-- Every weakly fair execution ends with the result array at the window entropy of the argument, the argument unchanged. -/
theorem run : θ_run defs (onTc (τ := τ) (main (F := Ideal))) ⟨m, fun _ => 0, ρ⟩ fun r => ∀ c : Dev nD,
      r.2.mem ((c.tc : Thread nD τ).loc main_v2) = entropyAt (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.ArrayValue

end
-- ==== Proof.ReferenceValue.lean ====
/-
  The reference's result is the window entropy `Cert.Entropy.entropyAt` of its input, index by index.

  The reference slices the four shifted views of the input, joins them along a new last axis into a window array
  `[8, 64, 255, 255, 4]`, flattens the two position axes to `[8, 64, 65025, 4]`, and then sums, divides, takes
  logarithms and sums again along the last axis. Read at an entry `(b, c, q)`: element `k` of the window array's row is
  the input at the corner `(q / 255, q % 255)` shifted by `(k / 2, k % 2)` — the flattened position splits by division
  with remainder, and the joined axis picks the `k`-th view —, and the two sums over the four taps unfold to the
  arrangement the specification states.
-/
import proofs.«163738_j70600672411748_1_alg».proof.Proof.Gen.ReferenceIdeal.Read
import proofs.«163738_j70600672411748_1_alg».proof.Proof.EntropyAt
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Cert.Entropy
open Idealize.ShloMosaic Idealize.ShloMosaic.ValueIdx

/-- The four shifted views, each with a kept unit last axis, in the order they are joined. -/
abbrev views (x : (⟨S8x64x256x256, .f32⟩ : BufTy).Contents (Elt Ideal)) : List ((s : Shape) × (s.Idx → Elt Ideal .f32)) :=
  [⟨S8x64x255x255x1, val_main_v4 (F := Ideal) x⟩, ⟨S8x64x255x255x1, val_main_v5 (F := Ideal) x⟩,
   ⟨S8x64x255x255x1, val_main_v6 (F := Ideal) x⟩, ⟨S8x64x255x255x1, val_main_v7 (F := Ideal) x⟩]

/-- Tap 0 of the window array is the input at the window's corner shifted by `(0, 0)`. -/
theorem window_0 (x : (⟨S8x64x256x256, .f32⟩ : BufTy).Contents (Elt Ideal)) (i : S8x64x65025.Idx) :
    val_main_v9 (F := Ideal) x (idx_main_v10 i 0) = tap x i 0 0 := by
  have h0 : (i 0).val < 8 := (i 0).isLt
  have h1 : (i 1).val < 64 := (i 1).isLt
  have h2 : (i 2).val < 65025 := (i 2).isLt
  rw [val_main_v9_apply]
  have key := concatenate_apply_piece (4 : Fin S8x64x255x255x4.rank) (views x)
    concatenates_S8x64x255x255x1_S8x64x255x255x1_S8x64x255x255x1_S8x64x255x255x1_S8x64x255x255x4_d4
    (idx_main_v9 (idx_main_v10 i 0)) 0 (by show 0 < 4; omega) S8x64x255x255x1 (val_main_v4 (F := Ideal) x) rfl rfl 0 (by rfl)
    (ix5 (i 0) (i 1) (⟨(i 2).val / 255, by omega⟩ : Fin 255) (⟨(i 2).val % 255, by omega⟩ : Fin 255) (0 : Fin 1))
    (fun b hb => by
      match b with
      | ⟨0, _⟩ => show (i 0).val = ((((i 0).val * 64 + (i 1).val) * 65025 + (i 2).val) * 4 + 0) / 16646400; omega
      | ⟨1, _⟩ => show (i 1).val = ((((i 0).val * 64 + (i 1).val) * 65025 + (i 2).val) * 4 + 0) / 260100 % 64; omega
      | ⟨2, _⟩ => show (i 2).val / 255 = ((((i 0).val * 64 + (i 1).val) * 65025 + (i 2).val) * 4 + 0) / 1020 % 255; omega
      | ⟨3, _⟩ => show (i 2).val % 255 = ((((i 0).val * 64 + (i 1).val) * 65025 + (i 2).val) * 4 + 0) / 4 % 255; omega
      | ⟨4, _⟩ => exact absurd rfl hb)
    (by show 0 + 0 = ((((i 0).val * 64 + (i 1).val) * 65025 + (i 2).val) * 4 + 0) % 4; omega)
  refine key.trans ?_
  rw [val_main_v4_apply, val_main_v0_apply]
  unfold tap
  refine congrArg x (funext fun a => Fin.ext ?_)
  match a with
  | ⟨0, _⟩ => rfl
  | ⟨1, _⟩ => rfl
  | ⟨2, _⟩ => show (i 2).val / 255 = (i 2).val / 255 + 0; omega
  | ⟨3, _⟩ => show (i 2).val % 255 = (i 2).val % 255 + 0; omega

/-- Tap 1 of the window array is the input at the window's corner shifted by `(0, 1)`. -/
theorem window_1 (x : (⟨S8x64x256x256, .f32⟩ : BufTy).Contents (Elt Ideal)) (i : S8x64x65025.Idx) :
    val_main_v9 (F := Ideal) x (idx_main_v10 i 1) = tap x i 0 1 := by
  have h0 : (i 0).val < 8 := (i 0).isLt
  have h1 : (i 1).val < 64 := (i 1).isLt
  have h2 : (i 2).val < 65025 := (i 2).isLt
  rw [val_main_v9_apply]
  have key := concatenate_apply_piece (4 : Fin S8x64x255x255x4.rank) (views x)
    concatenates_S8x64x255x255x1_S8x64x255x255x1_S8x64x255x255x1_S8x64x255x255x1_S8x64x255x255x4_d4
    (idx_main_v9 (idx_main_v10 i 1)) 1 (by show 1 < 4; omega) S8x64x255x255x1 (val_main_v5 (F := Ideal) x) rfl rfl 1 (by rfl)
    (ix5 (i 0) (i 1) (⟨(i 2).val / 255, by omega⟩ : Fin 255) (⟨(i 2).val % 255, by omega⟩ : Fin 255) (0 : Fin 1))
    (fun b hb => by
      match b with
      | ⟨0, _⟩ => show (i 0).val = ((((i 0).val * 64 + (i 1).val) * 65025 + (i 2).val) * 4 + 1) / 16646400; omega
      | ⟨1, _⟩ => show (i 1).val = ((((i 0).val * 64 + (i 1).val) * 65025 + (i 2).val) * 4 + 1) / 260100 % 64; omega
      | ⟨2, _⟩ => show (i 2).val / 255 = ((((i 0).val * 64 + (i 1).val) * 65025 + (i 2).val) * 4 + 1) / 1020 % 255; omega
      | ⟨3, _⟩ => show (i 2).val % 255 = ((((i 0).val * 64 + (i 1).val) * 65025 + (i 2).val) * 4 + 1) / 4 % 255; omega
      | ⟨4, _⟩ => exact absurd rfl hb)
    (by show 1 + 0 = ((((i 0).val * 64 + (i 1).val) * 65025 + (i 2).val) * 4 + 1) % 4; omega)
  refine key.trans ?_
  rw [val_main_v5_apply, val_main_v1_apply]
  unfold tap
  refine congrArg x (funext fun a => Fin.ext ?_)
  match a with
  | ⟨0, _⟩ => rfl
  | ⟨1, _⟩ => rfl
  | ⟨2, _⟩ => show (i 2).val / 255 = (i 2).val / 255 + 0; omega
  | ⟨3, _⟩ => show 1 + (i 2).val % 255 = (i 2).val % 255 + 1; omega

/-- Tap 2 of the window array is the input at the window's corner shifted by `(1, 0)`. -/
theorem window_2 (x : (⟨S8x64x256x256, .f32⟩ : BufTy).Contents (Elt Ideal)) (i : S8x64x65025.Idx) :
    val_main_v9 (F := Ideal) x (idx_main_v10 i 2) = tap x i 1 0 := by
  have h0 : (i 0).val < 8 := (i 0).isLt
  have h1 : (i 1).val < 64 := (i 1).isLt
  have h2 : (i 2).val < 65025 := (i 2).isLt
  rw [val_main_v9_apply]
  have key := concatenate_apply_piece (4 : Fin S8x64x255x255x4.rank) (views x)
    concatenates_S8x64x255x255x1_S8x64x255x255x1_S8x64x255x255x1_S8x64x255x255x1_S8x64x255x255x4_d4
    (idx_main_v9 (idx_main_v10 i 2)) 2 (by show 2 < 4; omega) S8x64x255x255x1 (val_main_v6 (F := Ideal) x) rfl rfl 2 (by rfl)
    (ix5 (i 0) (i 1) (⟨(i 2).val / 255, by omega⟩ : Fin 255) (⟨(i 2).val % 255, by omega⟩ : Fin 255) (0 : Fin 1))
    (fun b hb => by
      match b with
      | ⟨0, _⟩ => show (i 0).val = ((((i 0).val * 64 + (i 1).val) * 65025 + (i 2).val) * 4 + 2) / 16646400; omega
      | ⟨1, _⟩ => show (i 1).val = ((((i 0).val * 64 + (i 1).val) * 65025 + (i 2).val) * 4 + 2) / 260100 % 64; omega
      | ⟨2, _⟩ => show (i 2).val / 255 = ((((i 0).val * 64 + (i 1).val) * 65025 + (i 2).val) * 4 + 2) / 1020 % 255; omega
      | ⟨3, _⟩ => show (i 2).val % 255 = ((((i 0).val * 64 + (i 1).val) * 65025 + (i 2).val) * 4 + 2) / 4 % 255; omega
      | ⟨4, _⟩ => exact absurd rfl hb)
    (by show 2 + 0 = ((((i 0).val * 64 + (i 1).val) * 65025 + (i 2).val) * 4 + 2) % 4; omega)
  refine key.trans ?_
  rw [val_main_v6_apply, val_main_v2_apply]
  unfold tap
  refine congrArg x (funext fun a => Fin.ext ?_)
  match a with
  | ⟨0, _⟩ => rfl
  | ⟨1, _⟩ => rfl
  | ⟨2, _⟩ => show 1 + (i 2).val / 255 = (i 2).val / 255 + 1; omega
  | ⟨3, _⟩ => show (i 2).val % 255 = (i 2).val % 255 + 0; omega

/-- Tap 3 of the window array is the input at the window's corner shifted by `(1, 1)`. -/
theorem window_3 (x : (⟨S8x64x256x256, .f32⟩ : BufTy).Contents (Elt Ideal)) (i : S8x64x65025.Idx) :
    val_main_v9 (F := Ideal) x (idx_main_v10 i 3) = tap x i 1 1 := by
  have h0 : (i 0).val < 8 := (i 0).isLt
  have h1 : (i 1).val < 64 := (i 1).isLt
  have h2 : (i 2).val < 65025 := (i 2).isLt
  rw [val_main_v9_apply]
  have key := concatenate_apply_piece (4 : Fin S8x64x255x255x4.rank) (views x)
    concatenates_S8x64x255x255x1_S8x64x255x255x1_S8x64x255x255x1_S8x64x255x255x1_S8x64x255x255x4_d4
    (idx_main_v9 (idx_main_v10 i 3)) 3 (by show 3 < 4; omega) S8x64x255x255x1 (val_main_v7 (F := Ideal) x) rfl rfl 3 (by rfl)
    (ix5 (i 0) (i 1) (⟨(i 2).val / 255, by omega⟩ : Fin 255) (⟨(i 2).val % 255, by omega⟩ : Fin 255) (0 : Fin 1))
    (fun b hb => by
      match b with
      | ⟨0, _⟩ => show (i 0).val = ((((i 0).val * 64 + (i 1).val) * 65025 + (i 2).val) * 4 + 3) / 16646400; omega
      | ⟨1, _⟩ => show (i 1).val = ((((i 0).val * 64 + (i 1).val) * 65025 + (i 2).val) * 4 + 3) / 260100 % 64; omega
      | ⟨2, _⟩ => show (i 2).val / 255 = ((((i 0).val * 64 + (i 1).val) * 65025 + (i 2).val) * 4 + 3) / 1020 % 255; omega
      | ⟨3, _⟩ => show (i 2).val % 255 = ((((i 0).val * 64 + (i 1).val) * 65025 + (i 2).val) * 4 + 3) / 4 % 255; omega
      | ⟨4, _⟩ => exact absurd rfl hb)
    (by show 3 + 0 = ((((i 0).val * 64 + (i 1).val) * 65025 + (i 2).val) * 4 + 3) % 4; omega)
  refine key.trans ?_
  rw [val_main_v7_apply, val_main_v3_apply]
  unfold tap
  refine congrArg x (funext fun a => Fin.ext ?_)
  match a with
  | ⟨0, _⟩ => rfl
  | ⟨1, _⟩ => rfl
  | ⟨2, _⟩ => show 1 + (i 2).val / 255 = (i 2).val / 255 + 1; omega
  | ⟨3, _⟩ => show 1 + (i 2).val % 255 = (i 2).val % 255 + 1; omega

/-- The position a tap's row belongs to: dropping the tap axis and the kept unit axis gives back the entry's index. -/
theorem row_idx (i : S8x64x65025.Idx) (k : Fin 4) : idx_main_v11 (idx_main_v14 (idx_main_v20 i k)) = i :=
  funext fun a => Fin.ext (by match a with | ⟨0, _⟩ => rfl | ⟨1, _⟩ => rfl | ⟨2, _⟩ => rfl)

/-- **The reference's result is the window entropy of its input.** -/
theorem reference_eq (x : (⟨S8x64x256x256, .f32⟩ : BufTy).Contents (Elt Ideal)) :
    val_main_v21 (F := Ideal) x = entropyAt x := by
  funext i
  have hk : ∀ k : Fin 4, idx_main_v20 i k = idx_main_v10 i k := fun _ => rfl
  rw [val_main_v21_apply, val_main_v20_apply]
  simp only [Fin.sum_univ_four, val_main_v19_apply, val_main_v18_apply, val_main_v17_apply, val_main_v16_apply,
    val_main_v15_apply, val_main_v14_apply, val_main_v13_apply, val_main_v12_apply, val_main_v11_apply, row_idx,
    val_main_cst_0_apply, val_main_cst_1_apply, val_main_cst_2_apply]
  rw [val_main_v10_apply]
  simp only [Fin.sum_univ_four, val_main_cst_apply, hk, window_0, window_1, window_2, window_3,
    Ideal.hostNegf_def, Ideal.negf_def, Ideal.ofBits_def, Ideal.ofBits_zero_f32, word_eps, Ideal.mulf_def,
    Ideal.hostDivf_def, Ideal.hostUnary_log_def, Ideal.addf_def]
  rfl

end Cert.ReferenceIdeal.RefValue

end
-- ==== Proof.lean ====
/-
  The window-entropy kernel against its reference, over the extended reals.

  For every 2 × 2 window of every 256 × 256 image, with taps `v₀₀ v₀₁ v₁₀ v₁₁`, a shift `ε` and `s = Σ v + ε`, both
  programs return `-Σ p · log (p + ε)` over the four probabilities `p`. The kernel forms `p = v · (1 / s)`, the reference
  `p = v / s`; the kernel adds the four summands left to right and subtracts from `0`, the reference sums them from `0`
  and negates. The groupings of the sums agree on the extended reals outright. The probabilities agree wherever `s ≠ 0`
  (the quotient by a nonzero `s` is the product with `s⁻¹ = 1 · s⁻¹`); at `s = 0` they can differ (a zero tap gives
  `0 · ⊤ = 0` against `0 / 0 = ⊥`), yet both results are `⊥` there, because some tap is then a nonzero real and its summand
  is `⊤` on both sides (`Cert.Entropy.byReciprocal_eq_byQuotient`). No finiteness of the input is used.

  The layouts: the kernel flattens the 8 × 64 images to 512, runs on 32 blocks of 16 images, and reshapes the
  `[512, 255, 255]` result to `[8, 64, 65025]` (`Cert.KernelIdeal.ArrayValue`); the reference joins the four shifted views
  along a new axis and flattens the window positions (`Cert.ReferenceIdeal.RefValue`). Both are the one function
  `Cert.Entropy.entropyAt` of the input. The idealized kernel is the kernel's own text read over the extended reals, so
  nothing is owed for that step; the three frames are the programs' runs with the results dropped.
-/
import proofs.«163738_j70600672411748_1_alg».proof.Defs
import proofs.«163738_j70600672411748_1_alg».proof.Proof.Gen.Kernel
import proofs.«163738_j70600672411748_1_alg».proof.Proof.Gen.Kernel.Skeleton
import proofs.«163738_j70600672411748_1_alg».proof.Proof.Gen.Kernel.Launch
import proofs.«163738_j70600672411748_1_alg».proof.Proof.Gen.Kernel.Points
import proofs.«163738_j70600672411748_1_alg».proof.Proof.Gen.Kernel.Frame
import proofs.«163738_j70600672411748_1_alg».proof.Proof.Gen.KernelIdeal
import proofs.«163738_j70600672411748_1_alg».proof.Proof.Gen.KernelIdeal.Skeleton
import proofs.«163738_j70600672411748_1_alg».proof.Proof.Gen.KernelIdeal.Launch
import proofs.«163738_j70600672411748_1_alg».proof.Proof.Gen.KernelIdeal.Points
import proofs.«163738_j70600672411748_1_alg».proof.Proof.Gen.KernelIdeal.Frame
import proofs.«163738_j70600672411748_1_alg».proof.Proof.Gen.ReferenceIdeal
import proofs.«163738_j70600672411748_1_alg».proof.Proof.Gen.Pre_finite_inputs
import proofs.«163738_j70600672411748_1_alg».proof.Proof.Gen.ReferenceIdeal.Run
import proofs.«163738_j70600672411748_1_alg».proof.Proof.Gen.ReferenceIdeal.Read
import proofs.«163738_j70600672411748_1_alg».proof.Proof.KernelArray
import proofs.«163738_j70600672411748_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and leaves its argument as it found it. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the window entropy of the argument they agree on. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.reference_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
